-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S28672x8192 : Shape := ⟨2, ![28672, 8192]⟩
abbrev S28672 : Shape := ⟨1, ![28672]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel
  bcast_S_S28672 : S_.BroadcastsInDim S28672 (![] : Fin 0 → Fin S28672.rank)
  reducesTo_S28672_S_d0 : S28672.ReducesTo [0] S_

variable [Facts]

def fn {F : FTy → Type} [FloatOps F] (main_arg0 : FVec F S8x8192 .f32) (main_arg1 : IVec S28672x8192 32) (main_arg2 : FVec F S28672 .f32) : IVec S_ 1 :=
  let main_v0 : FVec F S8x8192 .f32 := Host.absf main_arg0
  let main_cst : FVec F S_ .f32 := constant S_ .f32 0x7F800000#32
  let main_v1 : FVec F S8x8192 .f32 := broadcastInDim S8x8192 ![] bcast_S_S8x8192 main_cst
  let main_v2 : IVec S8x8192 1 := cmpf .olt main_v0 main_v1
  let main_c : IVec S_ 1 := constantI S_ 1 1#1
  let main_v3 : IVec S_ 1 := (fun x v => Host.reduce IntOp.andi x v reducesTo_S8x8192_S_d0_1 h_S_) main_v2 main_c
  let main_v4 : FVec F S28672 .f32 := Host.absf main_arg2
  let main_cst_0 : FVec F S_ .f32 := constant S_ .f32 0x7F800000#32
  let main_v5 : FVec F S28672 .f32 := broadcastInDim S28672 ![] bcast_S_S28672 main_cst_0
  let main_v6 : IVec S28672 1 := cmpf .olt main_v4 main_v5
  let main_c_1 : IVec S_ 1 := constantI S_ 1 1#1
  let main_v7 : IVec S_ 1 := (fun x v => Host.reduce IntOp.andi x v reducesTo_S28672_S_d0 h_S_) main_v6 main_c_1
  let main_v8 : IVec S_ 1 := andi main_v3 main_v7
  main_v8
-- ==== Kernel.lean ====
abbrev S8x8192 : Shape := ⟨2, ![8, 8192]⟩
abbrev S28672x8192 : Shape := ⟨2, ![28672, 8192]⟩
abbrev S28672 : Shape := ⟨1, ![28672]⟩
abbrev S1x28672 : Shape := ⟨2, ![1, 28672]⟩
abbrev S8x28672 : Shape := ⟨2, ![8, 28672]⟩
abbrev S256x8192 : Shape := ⟨2, ![256, 8192]⟩
abbrev S1x256 : Shape := ⟨2, ![1, 256]⟩
abbrev S8x256 : Shape := ⟨2, ![8, 256]⟩
abbrev S8192x256 : Shape := ⟨2, ![8192, 256]⟩

abbrev nBuf : Space → Nat
  | .hbm => 5
  | .vmem => 7
  | .smem => 0
  | _ => 0

abbrev bufTy : (tb : Table) → Fin (tcTables nBuf tb) → BufTy
  | .hbm, ⟨0, _⟩ => ⟨S8x8192, .f32⟩
  | .hbm, ⟨1, _⟩ => ⟨S28672x8192, .i32⟩
  | .hbm, ⟨2, _⟩ => ⟨S28672, .f32⟩
  | .hbm, ⟨3, _⟩ => ⟨S1x28672, .f32⟩
  | .hbm, ⟨4, _⟩ => ⟨S8x28672, .f32⟩
  | .local _ .vmem, ⟨0, _⟩ => ⟨S8x8192, .f32⟩
  | .local _ .vmem, ⟨1, _⟩ => ⟨S256x8192, .i32⟩
  | .local _ .vmem, ⟨2, _⟩ => ⟨S256x8192, .i32⟩
  | .local _ .vmem, ⟨3, _⟩ => ⟨S1x256, .f32⟩
  | .local _ .vmem, ⟨4, _⟩ => ⟨S1x256, .f32⟩
  | .local _ .vmem, ⟨5, _⟩ => ⟨S8x256, .f32⟩
  | .local _ .vmem, ⟨6, _⟩ => ⟨S8x256, .f32⟩
  | _, _ => ⟨S8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![112], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S28672_S1x28672 : S28672.ShapeCasts S1x28672
  inb_S8x8192_S8x8192_0_0 : ∀ a, (![0, 0] : Fin 2 → Nat) a + S8x8192.size a ≤ S8x8192.size a
  h_S8x8192 : 0 < S8x8192.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  transposes_S256x8192_p1_0_S8192x256 : S256x8192.Transposes [1, 0] S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  dot_S8x8192_S8192x256_S8x256_1_0_0_1_n_n_wf : DotDims.WF S8x8192 S8192x256 S8x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S8x8192.size a
  hwx0_0 : ∀ i : grid0.Coords, EltTy.bits .f32 = 32 ∨ (Rect.block (s := S8x8192) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S28672x8192.size a
  hwx0_1 : ∀ i : grid0.Coords, EltTy.bits .i32 = 32 ∨ (Rect.block (s := S28672x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x28672.size a
  hwx0_2 : ∀ i : grid0.Coords, EltTy.bits .f32 = 32 ∨ (Rect.block (s := S1x28672) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x28672.size a
  hwx0_3 : ∀ i : grid0.Coords, EltTy.bits .f32 = 32 ∨ (Rect.block (s := S8x28672) S8x256.size (cc0_transform_3 i) (hinb0_3 i)).WholeWords (EltTy.packing .f32)

variable [Facts₀]

def dot_S8x8192_S8192x256_S8x256_1_0_0_1_n_n : DotDims S8x8192 S8192x256 S8x256 where
  lhsContracting := [1]
  rhsContracting := [0]
  lhsNonContracting := [0]
  rhsNonContracting := [1]
  lhsBatch := []
  rhsBatch := []
  wf := dot_S8x8192_S8192x256_S8x256_1_0_0_1_n_n_wf

abbrev win0_0 : Pipeline.Window sig grid0 :=
  Pipeline.Window.ofSpec (Memref.whole main_arg0) S8x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192 : Shape := ⟨2, ![8, 8192]⟩
abbrev S28672x8192 : Shape := ⟨2, ![28672, 8192]⟩
abbrev S28672 : Shape := ⟨1, ![28672]⟩
abbrev S28672x1 : Shape := ⟨2, ![28672, 1]⟩
abbrev S8x28672 : Shape := ⟨2, ![8, 28672]⟩

abbrev nBuf : Space → Nat
  | .hbm => 8
  | .vmem => 0
  | .smem => 0
  | _ => 0

abbrev bufTy : (tb : Table) → Fin (tcTables nBuf tb) → BufTy
  | .hbm, ⟨0, _⟩ => ⟨S8x8192, .f32⟩
  | .hbm, ⟨1, _⟩ => ⟨S28672x8192, .i32⟩
  | .hbm, ⟨2, _⟩ => ⟨S28672, .f32⟩
  | .hbm, ⟨3, _⟩ => ⟨S28672x8192, .f32⟩
  | .hbm, ⟨4, _⟩ => ⟨S28672x1, .f32⟩
  | .hbm, ⟨5, _⟩ => ⟨S28672x8192, .f32⟩
  | .hbm, ⟨6, _⟩ => ⟨S28672x8192, .f32⟩
  | .hbm, ⟨7, _⟩ => ⟨S8x28672, .f32⟩
  | _, _ => ⟨S8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S28672_S28672x1_0 : S28672.BroadcastsInDim S28672x1 (![0] : Fin 1 → Fin S28672x1.rank)
  bcast_S28672x1_S28672x8192_0_1 : S28672x1.BroadcastsInDim S28672x8192 (![0, 1] : Fin 2 → Fin S28672x8192.rank)
  dot_S8x8192_S28672x8192_S8x28672_1_1_0_0_n_n_wf : DotDims.WF S8x8192 S28672x8192 S8x28672 [1] [1] [0] [0] [] []

variable [Facts₀]

def dot_S8x8192_S28672x8192_S8x28672_1_1_0_0_n_n : DotDims S8x8192 S28672x8192 S8x28672 where
  lhsContracting := [1]
  rhsContracting := [1]
  lhsNonContracting := [0]
  rhsNonContracting := [0]
  lhsBatch := []
  rhsBatch := []
  wf := dot_S8x8192_S28672x8192_S8x28672_1_1_0_0_n_n_wf

class Facts : Prop extends Facts₀ where

variable [Facts]
-- ==== Proof.Spec.lean ====
/-
  A per-channel dequantised matrix product, written two ways over the extended reals.

  The data: activations `x` (8 rows of 8192 reals), integer weights `q` (28672 output channels of 8192
  signed 32-bit words each) and one scale `s n` per output channel `n`. Entry `(r, n)` of the result is

    scaleAfter  :  (∑ k, x r k · q n k) · s n        the scale applied once, to the finished dot product
    scaleBefore :  ∑ k, x r k · (q n k · s n)        every weight scaled first, then the dot product

  On the reals the two agree: multiplication is associative and distributes over a finite sum.  On the extended
  reals distributivity fails at the infinities (a sum of terms of both signs times an infinite scale), so
  the equality is stated for activations and scales that are real numbers; an integer weight always is one.
-/
import Idealize.ShloMosaic.PureOps.Ideal
import Idealize.ShloMosaic.Lib.ValueIdx

noncomputable section

namespace Cert.DequantMatmul

open Idealize.ShloMosaic Idealize.ShloMosaic.ValueIdx

/-- The scale applied after the dot product: entry `(r, n)` is `(∑ k, x r k · q n k) · s n`. -/
def scaleAfter (x : (⟨2, ![8, 8192]⟩ : Shape).Idx → EReal) (q : (⟨2, ![28672, 8192]⟩ : Shape).Idx → BitVec 32)
    (s : (⟨1, ![28672]⟩ : Shape).Idx → EReal) : (⟨2, ![8, 28672]⟩ : Shape).Idx → EReal :=
  fun i => (∑ k : Fin 8192, x (ix2 (i 0) k) * (((q (ix2 (i 1) k)).toInt : ℝ) : EReal)) * s (ix1 (i 1))

/-- Every weight scaled before the dot product: entry `(r, n)` is `∑ k, x r k · (q n k · s n)`. -/
def scaleBefore (x : (⟨2, ![8, 8192]⟩ : Shape).Idx → EReal) (q : (⟨2, ![28672, 8192]⟩ : Shape).Idx → BitVec 32)
    (s : (⟨1, ![28672]⟩ : Shape).Idx → EReal) : (⟨2, ![8, 28672]⟩ : Shape).Idx → EReal :=
  fun i => ∑ k : Fin 8192, x (ix2 (i 0) k) * ((((q (ix2 (i 1) k)).toInt : ℝ) : EReal) * s (ix1 (i 1)))

/-- The inclusion of the reals in the extended reals carries a finite sum to the sum of the inclusions. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- For real terms and a real factor, the factor moves from outside a finite sum of products onto the second
    factor of every term: `(∑ k, a k · b k) · s = ∑ k, a k · (b k · s)`, computed in the reals. -/
theorem sum_mul_real {ι : Type} [Fintype ι] (a b : ι → ℝ) (s : ℝ) :
    (∑ k, (a k : EReal) * (b k : EReal)) * (s : EReal) = ∑ k, (a k : EReal) * ((b k : EReal) * (s : EReal)) := by
  have hl : (∑ k, (a k : EReal) * (b k : EReal)) * (s : EReal) = (((∑ k, a k * b k) * s : ℝ) : EReal) := by
    rw [EReal.coe_mul, coe_sum]
    exact congrArg (· * (s : EReal)) (Finset.sum_congr rfl fun k _ => (EReal.coe_mul _ _).symm)
  have hr : ∑ k, (a k : EReal) * ((b k : EReal) * (s : EReal)) = ((∑ k, a k * (b k * s) : ℝ) : EReal) := by
    rw [coe_sum]
    exact Finset.sum_congr rfl fun k _ => by rw [EReal.coe_mul, EReal.coe_mul]
  rw [hl, hr, Finset.sum_mul]
  exact congrArg _ (Finset.sum_congr rfl fun k _ => mul_assoc _ _ _)

/-- The two arrangements agree when every activation and every scale is a real number. -/
theorem scaleBefore_eq_scaleAfter (x : (⟨2, ![8, 8192]⟩ : Shape).Idx → EReal) (q : (⟨2, ![28672, 8192]⟩ : Shape).Idx → BitVec 32)
    (s : (⟨1, ![28672]⟩ : Shape).Idx → EReal) (hx : ∀ i, ∃ r : ℝ, x i = (r : EReal)) (hs : ∀ n, ∃ r : ℝ, s n = (r : EReal)) :
    scaleBefore x q s = scaleAfter x q s := by
  choose xr hxr using hx
  choose sr hsr using hs
  obtain rfl : x = fun i => ((xr i : ℝ) : EReal) := funext hxr
  obtain rfl : s = fun n => ((sr n : ℝ) : EReal) := funext hsr
  funext i
  exact (sum_mul_real (fun k : Fin 8192 => xr (ix2 (i 0) k)) (fun k => ((q (ix2 (i 1) k)).toInt : ℝ)) (sr (ix1 (i 1)))).symm

end Cert.DequantMatmul

end
-- ==== Proof.RefValue.lean ====
/-
  The reference, read index by index: it converts the integer weights to floats, multiplies row `n` of them by
  the channel's scale `s n` (the scales laid out as a column and repeated along each row), and contracts the
  activations with the scaled weights over the shared axis of length 8192.  Entry `(r, n)` of its result is
  therefore `∑ k, x r k · (q n k · s n)`: the arrangement `scaleBefore`.
-/
import proofs.«144886_j71743133713048_1_alg».proof.Proof.Gen.ReferenceIdeal.Read
import proofs.«144886_j71743133713048_1_alg».proof.Proof.Spec

noncomputable section

namespace Cert.DequantMatmul

open Cert.ReferenceIdeal Cert.ReferenceIdeal.Gen Cert.ReferenceIdeal.Read
open Idealize.ShloMosaic Idealize.ShloMosaic.ValueIdx

/-- The activation the dot product reads for output entry `(r, n)` at contraction position `k` is entry `(r, k)`. -/
theorem lhs_index (r : Fin 8) (n : Fin 28672) (k : Fin 8192) : lidx_main_v4 (ix2 r n) k = ix2 r k :=
  funext fun a => Fin.ext (by match a with | ⟨0, _⟩ => rfl | ⟨1, _⟩ => rfl)

/-- The scaled weight it reads there is entry `(n, k)`. -/
theorem rhs_index (r : Fin 8) (n : Fin 28672) (k : Fin 8192) : ridx_main_v4 (ix2 r n) k = ix2 n k :=
  funext fun a => Fin.ext (by match a with | ⟨0, _⟩ => rfl | ⟨1, _⟩ => rfl)

/-- The scale repeated along row `n` of the weights is channel `n`'s own: both broadcasts keep the row coordinate. -/
theorem scale_index (n : Fin 28672) (k : Fin 8192) : idx_main_v1 (idx_main_v2 (ix2 n k)) = ix1 n :=
  funext fun a => Fin.ext (by match a with | ⟨0, _⟩ => rfl)

/-- The reference's result, as a function of its three arguments, is `scaleBefore`. -/
theorem reference_eq (x : (⟨S8x8192, .f32⟩ : BufTy).Contents (Elt Ideal)) (q : (⟨S28672x8192, .i32⟩ : BufTy).Contents (Elt Ideal))
    (s : (⟨S28672, .f32⟩ : BufTy).Contents (Elt Ideal)) :
    val_main_v4 (F := Ideal) x q s = scaleBefore x q s := by
  funext i
  obtain ⟨r, n, rfl⟩ : ∃ (r : Fin 8) (n : Fin 28672), i = ix2 r n := ⟨i 0, i 1, eq_ix2 i⟩
  rw [val_main_v4_apply]
  show _ = ∑ k : Fin 8192, x (ix2 r k) * ((((q (ix2 n k)).toInt : ℝ) : EReal) * s (ix1 n))
  refine Finset.sum_congr rfl fun k _ => ?_
  rw [val_main_v3_apply, val_main_v0_apply, val_main_v2_apply, val_main_v1_apply, lhs_index r n k, rhs_index r n k,
    scale_index n k]
  rfl

end Cert.DequantMatmul

end
-- ==== Proof.Payload.lean ====
/-
  The kernel body at one grid point, read index by index.  From the activations `a` (8 × 8192), a tile `w` of 256
  rows of integer weights (256 × 8192) and the tile's 256 scales `c` (one row), it stores the 8 × 256 block whose
  entry `(r, j)` is `(∑ k, a r k · w j k) · c j`: the weights are converted to floats, the tile is transposed so that
  the matrix product contracts the shared axis of length 8192, the product is accumulated from zero, and the row
  of scales is repeated down the 8 rows and multiplied in.  Changes of float format are the identity on the
  extended reals.
-/
import proofs.«144886_j71743133713048_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.DequantMatmul

open Cert.KernelIdeal Cert.KernelIdeal.Gen
open Idealize.ShloMosaic Idealize.ShloMosaic.ValueIdx

/-! ## The matrix product's operand indices -/

/-- The left operand is read in the output entry's row … -/
theorem lhs_row (i : S8x256.Idx) (q : dot_S8x8192_S8192x256_S8x256_1_0_0_1_n_n.contr.Idx) :
    (dot_S8x8192_S8192x256_S8x256_1_0_0_1_n_n.lhsIdx i q 0).val = (i 0).val := by
  unfold DotDims.lhsIdx
  rw [dif_neg (show ¬(0 : Fin S8x8192.rank) ∈ dot_S8x8192_S8192x256_S8x256_1_0_0_1_n_n.lhsBatch by decide),
    dif_pos (show (0 : Fin S8x8192.rank) ∈ dot_S8x8192_S8192x256_S8x256_1_0_0_1_n_n.lhsNonContracting by decide)]
  rfl

/-- … at the contraction position; -/
theorem lhs_contr (i : S8x256.Idx) (q : dot_S8x8192_S8192x256_S8x256_1_0_0_1_n_n.contr.Idx) :
    (dot_S8x8192_S8192x256_S8x256_1_0_0_1_n_n.lhsIdx i q 1).val = (q ⟨0, by decide⟩).val :=
  dot_S8x8192_S8192x256_S8x256_1_0_0_1_n_n.lhsIdx_val_of_single rfl i q

/-- the right operand is read at the contraction position … -/
theorem rhs_contr (i : S8x256.Idx) (q : dot_S8x8192_S8192x256_S8x256_1_0_0_1_n_n.contr.Idx) :
    (dot_S8x8192_S8192x256_S8x256_1_0_0_1_n_n.rhsIdx i q 0).val = (q ⟨0, by decide⟩).val :=
  dot_S8x8192_S8192x256_S8x256_1_0_0_1_n_n.rhsIdx_val_of_single rfl i q

/-- … in the output entry's column. -/
theorem rhs_col (i : S8x256.Idx) (q : dot_S8x8192_S8192x256_S8x256_1_0_0_1_n_n.contr.Idx) :
    (dot_S8x8192_S8192x256_S8x256_1_0_0_1_n_n.rhsIdx i q 1).val = (i 1).val := by
  unfold DotDims.rhsIdx
  rw [dif_neg (show ¬(1 : Fin S8192x256.rank) ∈ dot_S8x8192_S8192x256_S8x256_1_0_0_1_n_n.rhsBatch by decide),
    dif_pos (show (1 : Fin S8192x256.rank) ∈ dot_S8x8192_S8192x256_S8x256_1_0_0_1_n_n.rhsNonContracting by decide)]
  rfl

/-- The matrix product accumulated from zero: entry `(r, j)` is `∑ k, a r k · b k j`. -/
theorem matmul_at (a : FVec Ideal S8x8192 .bf16) (b : FVec Ideal S8192x256 .bf16) (r : Fin 8) (j : Fin 256) :
    matmul dot_S8x8192_S8192x256_S8x256_1_0_0_1_n_n none a b (constant (F := Ideal) S8x256 .f32 0x00000000#32) (ix2 r j)
      = ∑ k : Fin 8192, a (ix2 r k) * b (ix2 k j) := by
  show FloatOps.matmul dot_S8x8192_S8192x256_S8x256_1_0_0_1_n_n none a b (constant (F := Ideal) S8x256 .f32 0x00000000#32) (ix2 r j) = _
  rw [Ideal.matmul_constant_zero_apply, ← Equiv.sum_comp (contrEquiv1 dot_S8x8192_S8192x256_S8x256_1_0_0_1_n_n 8192 rfl rfl).symm]
  refine Finset.sum_congr rfl fun k _ => ?_
  have hk := contrEquiv1_symm_val dot_S8x8192_S8192x256_S8x256_1_0_0_1_n_n 8192 rfl rfl k
  have el : dot_S8x8192_S8192x256_S8x256_1_0_0_1_n_n.lhsIdx (ix2 r j) ((contrEquiv1 dot_S8x8192_S8192x256_S8x256_1_0_0_1_n_n 8192 rfl rfl).symm k) = ix2 r k :=
    funext fun ax => Fin.ext (by
      match ax with
      | ⟨0, _⟩ => exact lhs_row _ _
      | ⟨1, _⟩ => exact (lhs_contr _ _).trans hk)
  have er : dot_S8x8192_S8192x256_S8x256_1_0_0_1_n_n.rhsIdx (ix2 r j) ((contrEquiv1 dot_S8x8192_S8192x256_S8x256_1_0_0_1_n_n 8192 rfl rfl).symm k) = ix2 k j :=
    funext fun ax => Fin.ext (by
      match ax with
      | ⟨0, _⟩ => exact (rhs_contr _ _).trans hk
      | ⟨1, _⟩ => exact rhs_col _ _)
  rw [el, er]

/-! ## The stored block -/

/-- Entry `(r, j)` of the block the body stores is `(∑ k, a r k · w j k) · c j`. -/
theorem payload_apply (a : Vec Ideal S8x8192 .f32) (w : Vec Ideal S256x8192 .i32) (c : Vec Ideal S1x256 .f32)
    (r : Fin 8) (j : Fin 256) :
    k0_pay1 (F := Ideal) a w c (ix2 r j)
      = (∑ k : Fin 8192, a (ix2 r k) * (((w (ix2 j k)).toInt : ℝ) : EReal)) * c (ix2 (0 : Fin 1) j) := by
  unfold k0_pay1
  rw [mulf_apply, matmul_at, shapeCast_self, broadcastTo_1b_ab_apply]
  refine congrArg (· * c (ix2 (0 : Fin 1) j)) (Finset.sum_congr rfl fun k _ => ?_)
  rw [transpose_ix2_apply]
  rfl

end Cert.DequantMatmul

end
-- ==== Proof.KernelValue.lean ====
/-
  The kernel's result array.  The grid has 112 points; point `t` works on output channels `256·t … 256·t + 255`:
  it reads all the activations (the same block at every point), rows `256·t + j` of the weights, entries
  `256·t + j` of the scales (which the host lays out as one row of 28672 beforehand), and writes columns
  `256·t + j` of the 8 × 28672 result.  By the body's value (`payload_apply`) the block it writes is the
  corresponding block of `scaleAfter` of the three argument arrays, and the 112 blocks tile the result, so the
  result array ends holding `scaleAfter` of the arguments everywhere.
-/
import proofs.«144886_j71743133713048_1_alg».proof.Proof.Gen.KernelIdeal.Value
import proofs.«144886_j71743133713048_1_alg».proof.Proof.Payload
import proofs.«144886_j71743133713048_1_alg».proof.Proof.Spec
import Idealize.ShloMosaic.Lib.StableHlo.Run

noncomputable section

namespace Cert.DequantMatmul

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The grid -/

theorem zero_offsets : (![0, 0] : Fin 2 → Nat) = fun _ => 0 := funext fun a => by fin_cases a <;> rfl

/-- The block indices at point `t`, per window and axis: the activations always block `(0, 0)`, the weights block
    `(t, 0)`, the scales and the result block `(0, t)`. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 112 := lt_of_lt_of_eq t.isLt N_0

/-- The output channel that point `t` handles at position `j` of its tile. -/
def chan (t : Fin cfg0.N) (j : Fin 256) : Fin 28672 :=
  ⟨256 * t.val + j.val, by have := point_lt t; have := j.isLt; omega⟩

/-! ## The blocks the body reads -/

/-- The scales as the region finds them: the host has laid the 28672 scales out as one row. -/
theorem scales_row (c : Dev nD) (n : Fin 28672) :
    V m c main_v0 (ix2 (0 : Fin 1) n) = m ((c : Thread nD τ).loc main_arg2) (ix1 n) := by
  have e : (V m c main_v0 : S1x28672.Idx → EReal)
      = shapeCast S1x28672 (m ((c : Thread nD τ).loc main_arg2)) shapeCasts_S28672_S1x28672 := by
    dsimp only [Gen.V, Gen.hostOps0]; after_results; rfl
  rw [e]
  exact shapeCast_a_1a_apply _ _ 0 n

/-- The activations' block at any point is the whole array. -/
theorem acts_block (c : Dev nD) (t : Fin cfg0.N) (r : Fin 8) (k : Fin 8192) :
    iblk m c 0 t (ix2 r k) = m ((c : Thread nD τ).loc main_arg0) (ix2 r k) := by
  obtain ⟨e0, e1, -⟩ := index_facts t
  show V m c main_arg0 (((cfg0.win 0).blk t).view.emb (ix2 r k)) = _
  rw [V_main_arg0]
  refine congrArg _ (funext fun a => Fin.ext ?_)
  match a with
  | ⟨0, _⟩ => show win0_0.index t (0 : Fin 2) * 8 + 1 * r.val = r.val; omega
  | ⟨1, _⟩ => show win0_0.index t (1 : Fin 2) * 8192 + 1 * k.val = k.val; omega

/-- The weights' block at point `t` is rows `256·t + j`. -/
theorem weights_block (c : Dev nD) (t : Fin cfg0.N) (j : Fin 256) (k : Fin 8192) :
    iblk m c 1 t (ix2 j k) = m ((c : Thread nD τ).loc main_arg1) (ix2 (chan t j) k) := by
  obtain ⟨-, -, e2, e3, -⟩ := index_facts t
  show V m c main_arg1 (((cfg0.win 1).blk t).view.emb (ix2 j k)) = _
  rw [V_main_arg1]
  refine congrArg _ (funext fun a => Fin.ext ?_)
  match a with
  | ⟨0, _⟩ => show win0_1.index t (0 : Fin 2) * 256 + 1 * j.val = 256 * t.val + j.val; omega
  | ⟨1, _⟩ => show win0_1.index t (1 : Fin 2) * 8192 + 1 * k.val = k.val; omega

/-- The scales' block at point `t` is entries `256·t + j`. -/
theorem scales_block (c : Dev nD) (t : Fin cfg0.N) (j : Fin 256) :
    iblk m c 2 t (ix2 (0 : Fin 1) j) = m ((c : Thread nD τ).loc main_arg2) (ix1 (chan t j)) := by
  obtain ⟨-, -, -, -, e4, e5, -⟩ := index_facts t
  show V m c main_v0 (((cfg0.win 2).blk t).view.emb (ix2 (0 : Fin 1) j)) = _
  have e : ((cfg0.win 2).blk t).view.emb (ix2 (0 : Fin 1) j) = (ix2 (0 : Fin 1) (chan t j) : S1x28672.Idx) :=
    funext fun a => Fin.ext (by
      match a with
      | ⟨0, _⟩ => show win0_2.index t (0 : Fin 2) * 1 + 1 * 0 = 0; omega
      | ⟨1, _⟩ => show win0_2.index t (1 : Fin 2) * 256 + 1 * j.val = 256 * t.val + j.val; omega)
  rw [e]
  exact scales_row m c (chan t j)

/-- Entry `(r, j)` of the block point `t` writes sits at `(r, 256·t + j)` of the result. -/
theorem out_entry (t : Fin cfg0.N) (r : Fin 8) (j : Fin 256) :
    ((cfg0.win 3).blk t).view.emb (ix2 r j) = (ix2 r (chan t j) : S8x28672.Idx) := by
  obtain ⟨-, -, -, -, -, -, e6, e7⟩ := index_facts t
  exact funext fun a => Fin.ext (by
    match a with
    | ⟨0, _⟩ => show win0_3.index t (0 : Fin 2) * 8 + 1 * r.val = r.val; omega
    | ⟨1, _⟩ => show win0_3.index t (1 : Fin 2) * 256 + 1 * j.val = 256 * t.val + j.val; omega)

/-! ## What each point writes back, and the whole array -/

/-- What point `t` writes back is block `t` of `scaleAfter` of the argument arrays. -/
theorem flushed_eq (c : Dev nD) (t : Fin cfg0.N) :
    (dats m 0 c).flushed 3 t = ((cfg0.win 3).blk t).view.read (Elt Ideal)
      (scaleAfter (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S8x8192) zero_offsets, View.ld_unit_zero (S := S256x8192) zero_offsets,
    View.ld_unit_zero (S := S1x256) zero_offsets]
  funext y
  obtain ⟨r, j, rfl⟩ : ∃ (r : Fin 8) (j : Fin 256), y = ix2 r j := ⟨y 0, y 1, eq_ix2 y⟩
  show k0_pay1 (F := Ideal) (iblk m c 0 t) (iblk m c 1 t) (iblk m c 2 t) (ix2 r j)
    = scaleAfter (m ((c : Thread nD τ).loc main_arg0)) (m ((c : Thread nD τ).loc main_arg1)) (m ((c : Thread nD τ).loc main_arg2))
        (((cfg0.win 3).blk t).view.emb (ix2 r j))
  rw [out_entry t r j]
  refine (payload_apply _ _ _ r j).trans ?_
  simp only [acts_block, weights_block, scales_block]
  rfl

/-- An index of the result is in point `t`'s block iff each coordinate is in the block's range on its axis. -/
theorem mem_blk (t : Fin cfg0.N) (i : S8x28672.Idx) :
    i ∈ ((cfg0.win 3).blk t).view.set ↔ ∀ a : Fin 2, win0_3.index t a * S8x256.size a ≤ (i a).val
      ∧ (i a).val < win0_3.index t a * S8x256.size a + S8x256.size a := by
  show i ∈ ((View.whole main_v1).slice (win0_3.rect t)).set ↔ _
  rw [View.set_slice_whole, Rect.mem_set_unit]
  exact Iff.rfl

/-- Every entry of the result is written by some point: column `n` by point `n / 256`. -/
theorem covered (i : S8x28672.Idx) : ∃ t : Fin cfg0.N, (cfg0.win 3).flush t = true ∧ i ∈ ((cfg0.win 3).blk t).view.set := by
  have hi0 : (i 0).val < 8 := (i 0).isLt
  have hi1 : (i 1).val < 28672 := (i 1).isLt
  have hN : cfg0.N = 112 := N_0
  let t : Fin cfg0.N := ⟨(i 1).val / 256, by rw [hN]; omega⟩
  obtain ⟨-, -, -, -, -, -, e6, e7⟩ := index_facts t
  have e7' : win0_3.index t (1 : Fin 2) = (i 1).val / 256 := e7
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 256 ≤ (i 1).val ∧ (i 1).val < win0_3.index t (1 : Fin 2) * 256 + 256; omega

/-- The result array after the run is `scaleAfter` of the argument arrays. -/
theorem final (c : Dev nD) : (dats m 0 c).arrAt 3 cfg0.N
    = scaleAfter (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it terminates with the result at `scaleAfter` of the arguments and the arguments unchanged. -/
theorem kernel_run : θ_run defs (onTc (τ := τ) (main (F := Ideal))) ⟨m, fun _ => 0, ρ⟩ fun r => ∀ c : Dev nD,
      r.2.mem ((c : Thread nD τ).loc main_v1)
        = scaleAfter (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.DequantMatmul

end
-- ==== Proof.Finite.lean ====
/-
  What the precondition gives.  It states, for the activations and for the scales, that every entry's absolute
  value is below `+∞` (the conjunction of the two tests over all entries is true).  An extended real with
  `|a| < +∞` is neither infinity, so it is a real number: every activation and every scale is real.  The
  integer weights carry no condition and need none.
-/
import proofs.«144886_j71743133713048_1_alg».proof.Proof.Gen.Pre_finite_inputs
import Idealize.ShloMosaic.PureOps.Ideal.Laws
import Idealize.ShloMosaic.Lib.ReduceAll
import Idealize.ShloMosaic.Lib.ValueIdx

noncomputable section

namespace Cert.DequantMatmul

open Idealize.ShloMosaic Idealize.ShloMosaic.ValueIdx

/-- The shape with no axes has one index. -/
instance : Subsingleton Cert.Pre_finite_inputs.S_.Idx := ⟨fun _ _ => funext fun d => d.elim0⟩

/-- An extended real whose absolute value `max a (-a)` is strictly below `+∞` is a real number. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- Under the precondition every activation and every scale is a real number. -/
theorem real_of_pre (x : FVec Ideal Cert.Pre_finite_inputs.S8x8192 .f32) (q : IVec Cert.Pre_finite_inputs.S28672x8192 32)
    (s : FVec Ideal Cert.Pre_finite_inputs.S28672 .f32)
    (h : Cert.Pre_finite_inputs.fn (F := Ideal) x q s = fun _ => 1#1) :
    (∀ i, ∃ r : ℝ, x i = (r : EReal)) ∧ (∀ n, ∃ r : ℝ, s n = (r : EReal)) := by
  have h0 := congrFun h ix0
  dsimp only [Cert.Pre_finite_inputs.fn] at h0
  obtain ⟨hx, hs⟩ := IntOp.andi_eq_one.1 (show IntOp.andi _ _ = 1#1 from h0)
  exact ⟨fun i => real_of_abs_lt_top _ (Host.reduce_andi_all _ _ _ _ _ hx i),
    fun n => real_of_abs_lt_top _ (Host.reduce_andi_all _ _ _ _ _ hs n)⟩

end Cert.DequantMatmul

end
-- ==== Proof.lean ====
/-
  A per-channel dequantised matrix product: activations `x` (8 × 8192 floats), integer weights `q` (28672 × 8192,
  one row per output channel) and one float scale `s n` per channel.

  The kernel walks the 28672 channels in 112 tiles of 256.  For each tile it multiplies the activations with the
  tile's weights, converted to floats, over the shared axis of length 8192, and then multiplies column `j` of the
  8 × 256 product by the channel's scale: entry `(r, n)` of its result is `(∑ k, x r k · q n k) · s n`.
  The reference scales every weight first, `w n k = q n k · s n`, and contracts the activations with `w`:
  entry `(r, n)` is `∑ k, x r k · (q n k · s n)`.

  At the ideal values a float is an extended real, a change of float format is the identity, an integer converts
  to itself, and both matrix products are plain sums; what separates the two programs is one use of associativity
  and distributivity, `(∑ k, a k · b k) · s = ∑ k, a k · (b k · s)`.  Distributivity fails on the extended reals at
  the infinities, so the precondition is used: every activation and every scale is finite, hence a real number,
  and the identity is the reals'.

  The modules: `Spec` states both arrangements and proves them equal on real data; `RefValue` reads the
  reference's result index by index; `Payload` reads the block the kernel body stores; `KernelValue` assembles
  the 112 blocks into the kernel's result array; `Finite` extracts "every entry is real" from the precondition.
  The three frames (each program terminates without a fault and leaves its arguments unchanged) are the generated
  ones; the idealised kernel is the kernel's own text read at the ideal values, so nothing is owed for it.
-/
import proofs.«144886_j71743133713048_1_alg».proof.Defs
import proofs.«144886_j71743133713048_1_alg».proof.Proof.Gen.Kernel
import proofs.«144886_j71743133713048_1_alg».proof.Proof.Gen.Kernel.Frame
import proofs.«144886_j71743133713048_1_alg».proof.Proof.Gen.KernelIdeal
import proofs.«144886_j71743133713048_1_alg».proof.Proof.Gen.KernelIdeal.Frame
import proofs.«144886_j71743133713048_1_alg».proof.Proof.Gen.KernelIdeal.Value
import proofs.«144886_j71743133713048_1_alg».proof.Proof.Gen.ReferenceIdeal
import proofs.«144886_j71743133713048_1_alg».proof.Proof.Gen.ReferenceIdeal.Run
import proofs.«144886_j71743133713048_1_alg».proof.Proof.Gen.ReferenceIdeal.Read
import proofs.«144886_j71743133713048_1_alg».proof.Proof.Gen.Pre_finite_inputs
import proofs.«144886_j71743133713048_1_alg».proof.Proof.Spec
import proofs.«144886_j71743133713048_1_alg».proof.Proof.RefValue
import proofs.«144886_j71743133713048_1_alg».proof.Proof.KernelValue
import proofs.«144886_j71743133713048_1_alg».proof.Proof.Finite

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- From memories that agree on the arguments, the kernel ends with `(∑ k, x r k · q n k) · s n` at every entry and the
    reference with `∑ k, x r k · (q n k · s n)`; the activations and the scales being real numbers, these are equal. -/
theorem algebraic : Cert.algebraic_KernelIdeal_ReferenceIdeal := by
  intro m ρ m' ρ' hpre hagree
  refine ⟨_, Cert.DequantMatmul.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.DequantMatmul.real_of_pre _ _ _ (hpre c)
  rw [Cert.ReferenceIdeal.Read.val_main_v4_eq, Cert.DequantMatmul.reference_eq, (hagree c).1, (hagree c).2.1, (hagree c).2.2]
  exact Cert.DequantMatmul.scaleBefore_eq_scaleAfter _ _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
